-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x64 : Shape := ⟨2, ![256, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S100000x256 .f32) (main_arg1 : IVec S1600000 32) (main_arg2 : IVec S1600000 32) (main_arg3 : FVec F S1600000 .f32) (main_arg4 : FVec F S256x64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  main_v13
-- ==== Kernel.lean ====
abbrev S100000x256 : Shape := ⟨2, ![100000, 256]⟩
abbrev S1600000 : Shape := ⟨1, ![1600000]⟩
abbrev S256x64 : Shape := ⟨2, ![256, 64]⟩
abbrev S100000x64 : Shape := ⟨2, ![100000, 64]⟩
abbrev S5000x256 : Shape := ⟨2, ![5000, 256]⟩
abbrev S5000x64 : Shape := ⟨2, ![5000, 64]⟩
abbrev S_ : Shape := ⟨0, ![]⟩
abbrev S38400 : Shape := ⟨1, ![38400]⟩
abbrev S1638400 : Shape := ⟨1, ![1638400]⟩
abbrev S1638400x1 : Shape := ⟨2, ![1638400, 1]⟩
abbrev S1638400x64 : Shape := ⟨2, ![1638400, 64]⟩
abbrev S8192 : Shape := ⟨1, ![8192]⟩
abbrev S8192x64 : Shape := ⟨2, ![8192, 64]⟩
abbrev S8192x1 : Shape := ⟨2, ![8192, 1]⟩
abbrev S10000x64 : Shape := ⟨2, ![10000, 64]⟩

abbrev nBuf : Space → Nat
  | .hbm => 30
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x64, .f32⟩
  | .hbm, ⟨5, _⟩ => ⟨S100000x64, .f32⟩
  | .hbm, ⟨6, _⟩ => ⟨S_, .i32⟩
  | .hbm, ⟨7, _⟩ => ⟨S38400, .i32⟩
  | .hbm, ⟨8, _⟩ => ⟨S1638400, .i32⟩
  | .hbm, ⟨9, _⟩ => ⟨S_, .i32⟩
  | .hbm, ⟨10, _⟩ => ⟨S38400, .i32⟩
  | .hbm, ⟨11, _⟩ => ⟨S1638400, .i32⟩
  | .hbm, ⟨12, _⟩ => ⟨S_, .f32⟩
  | .hbm, ⟨13, _⟩ => ⟨S38400, .f32⟩
  | .hbm, ⟨14, _⟩ => ⟨S1638400, .f32⟩
  | .hbm, ⟨15, _⟩ => ⟨S_, .i32⟩
  | .hbm, ⟨16, _⟩ => ⟨S1638400, .i32⟩
  | .hbm, ⟨17, _⟩ => ⟨S1638400, .i1⟩
  | .hbm, ⟨18, _⟩ => ⟨S_, .i32⟩
  | .hbm, ⟨19, _⟩ => ⟨S1638400, .i32⟩
  | .hbm, ⟨20, _⟩ => ⟨S1638400, .i32⟩
  | .hbm, ⟨21, _⟩ => ⟨S1638400, .i32⟩
  | .hbm, ⟨22, _⟩ => ⟨S1638400x1, .i32⟩
  | .hbm, ⟨23, _⟩ => ⟨S1638400x64, .f32⟩
  | .hbm, ⟨24, _⟩ => ⟨S1638400x64, .f32⟩
  | .hbm, ⟨25, _⟩ => ⟨S_, .f32⟩
  | .hbm, ⟨26, _⟩ => ⟨S100000x64, .f32⟩
  | .hbm, ⟨27, _⟩ => ⟨S1638400x1, .i32⟩
  | .hbm, ⟨28, _⟩ => ⟨S100000x64, .f32⟩
  | .hbm, ⟨29, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S8192, .f32⟩
  | .local _ .vmem, ⟨6, _⟩ => ⟨S8192, .f32⟩
  | .local _ .vmem, ⟨7, _⟩ => ⟨S8192x64, .f32⟩
  | .local _ .vmem, ⟨8, _⟩ => ⟨S8192x64, .f32⟩
  | .local _ .vmem, ⟨9, _⟩ => ⟨S8192x64, .f32⟩
  | .local _ .vmem, ⟨10, _⟩ => ⟨S8192x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S38400 : S_.BroadcastsInDim S38400 (![] : Fin 0 → Fin S38400.rank)
  concatenates_S1600000_S38400_S1638400_d0 : Shape.Concatenates [S1600000, S38400] S1638400 0
  bcast_S_S1638400 : S_.BroadcastsInDim S1638400 (![] : Fin 0 → Fin S1638400.rank)
  bcast_S1638400_S1638400x1_0 : S1638400.BroadcastsInDim S1638400x1 (![0] : Fin 1 → Fin S1638400x1.rank)
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  shapeCasts_S8192x1_S8192x1 : S8192x1.ShapeCasts S8192x1
  broadcasts_S8192x1_S8192x64 : S8192x1.Broadcasts S8192x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  dot_S5000x256_S256x64_S5000x64_1_0_0_1_n_n_wf : DotDims.WF S5000x256 S256x64 S5000x64 [1] [0] [0] [1] [] []
  gather_S100000x64_S1638400x1_S1638400x64_1_0_n_n_0_1_164_wf : GatherDims.WF S100000x64 S1638400x1 S1638400x64 [1] [0] [] [0] [] 1 ![1, 64]
  scatter_S100000x64_S1638400x1_S1638400x64_1_0_0_1_wf : ScatterDims.WF S100000x64 S1638400x1 S1638400x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192.size a ≤ S1638400.size a
  hwx1_0 : ∀ i : grid1.Coords, EltTy.bits .f32 = 32 ∨ (Rect.block (s := S1638400) S8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S1638400x64.size a
  hwx1_1 : ∀ i : grid1.Coords, EltTy.bits .f32 = 32 ∨ (Rect.block (s := S1638400x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S1638400x64.size a
  hwx1_2 : ∀ i : grid1.Coords, EltTy.bits .f32 = 32 ∨ (Rect.block (s := S1638400x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1638400x1_S1638400x64_1_0_n_n_0_1_164 : GatherDims S100000x64 S1638400x1 S1638400x64 where
  offsetDims := [1]
  collapsedSliceDims := [0]
  operandBatchingDims := []
  startIndicesBatchingDims := []
  startIndexMap := [0]
  indexVectorDim := 1
  sliceSizes := ![1, 64]
  wf := gather_S100000x64_S1638400x1_S1638400x64_1_0_n_n_0_1_164_wf
def scatter_S100000x64_S1638400x1_S1638400x64_1_0_0_1 : ScatterDims S100000x64 S1638400x1 S1638400x64 where
  updateWindowDims := [1]
  insertedWindowDims := [0]
  scatterDimsToOperandDims := [0]
  indexVectorDim := 1
  wf := scatter_S100000x64_S1638400x1_S1638400x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S10000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x64 : Shape := ⟨2, ![256, 64]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 25
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x64, .f32⟩
  | .hbm, ⟨5, _⟩ => ⟨S100000x64, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S100000x64, .f32⟩
  | .hbm, ⟨24, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.RegionProduct.lean ====
/-
  The first launch: a plain matrix product, written block by block.

  The grid has 20 points. Point `t` multiplies rows `5000 t … 5000 t + 4999` of the left matrix `A : [100000, 256]`
  by the whole right matrix `B : [256, 64]` into a zero accumulator (the change of float format in front of the product is
  the identity on the extended reals) and writes the result back as rows `5000 t … 5000 t + 4999` of the output. Entry
  `(p, q)` of a block is the contraction of row `p` of the block with column `q` of `B`; the 20 blocks tile the output,
  so the output array ends as the whole product, `(n, j) ↦ ∑ k, A (n, k) · B (k, j)`, whatever contents `V` the launch
  finds its arrays at.
-/
import proofs.«157785_j27315992003075_1_alg».proof.Proof.Gen.KernelIdeal.Frame
import proofs.«157785_j27315992003075_1_alg».proof.Proof.LibPlainProduct
import Idealize.ShloMosaic.Lib.Pipeline.Value
import Idealize.ShloMosaic.Lib.ValueIdx

set_option maxRecDepth 16384

noncomputable section

open scoped BigOperators

namespace Cert.KernelIdeal.Product

open Cert.KernelIdeal Cert.KernelIdeal.Gen
open Idealize.ShloMosaic Idealize.ShloMosaic.TcCoe Idealize.ShloMosaic.ValueIdx Idealize.SL.Sem
open Idealize.ShloMosaic.Pipeline (Dat)

/-- The whole product: entry `(n, j)` contracts row `n` of `A` with column `j` of `B`. -/
def product (A : S100000x256.Idx → EReal) (B : S256x64.Idx → EReal) : S100000x64.Idx → EReal :=
  fun i => ∑ k : Fin 256, A (ix2 (⟨(i 0).val, (i 0).isLt⟩ : Fin 100000) k) * B (ix2 k (⟨(i 1).val, (i 1).isLt⟩ : Fin 64))

theorem product_apply (A : S100000x256.Idx → EReal) (B : S256x64.Idx → EReal) (n : Fin 100000) (j : Fin 64) :
    product A B (ix2 n j) = ∑ k : Fin 256, A (ix2 n k) * B (ix2 k j) := rfl

theorem zero_offsets : (![0, 0] : Fin 2 → Nat) = fun _ => 0 := funext fun a => by fin_cases a <;> rfl

/-- The body's stored value at `(p, q)`: row `p` of the left block contracted with column `q` of the right one. -/
theorem stored_apply (x0 : FVec Ideal S5000x256 .f32) (x1 : FVec Ideal S256x64 .f32) (p : Fin 5000) (q : Fin 64) :
    k0_pay1 (F := Ideal) x0 x1 (ix2 p q) = ∑ k : Fin 256, x0 (ix2 p k) * x1 (ix2 k q) := by
  unfold k0_pay1
  exact Cert.PlainProduct.matmul_plain_apply dot_S5000x256_S256x64_S5000x64_1_0_0_1_n_n rfl none
    (truncf .bf16 x0 bitsLt_bf16_f32) (truncf .bf16 x1 bitsLt_bf16_f32) p q

/-- Where each window's block sits at point `t`: the left operand and the output move down one block of rows per point,
    the right operand stays. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole product of the arrays the launch finds. -/
theorem flushed_eq (c : Dev nD) (t : Fin cfg0.N) :
    (dat0 V c).flushed 2 t = ((cfg0.win 2).blk t).view.read (Elt Ideal) (product (V c main_arg0) (V c main_arg4)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x64) zero_offsets]
  obtain ⟨e0, e1, e2, e3, e4, e5⟩ := block_positions t
  funext j
  obtain ⟨p, q, rfl⟩ : ∃ (p : Fin 5000) (q : Fin 64), j = ix2 p q := ⟨j 0, j 1, eq_ix2 j⟩
  refine (stored_apply (iblk0 V c 0 t) (iblk0 V c 1 t) p q).trans ?_
  rw [View.read_apply]
  unfold product
  refine Finset.sum_congr rfl fun k _ => ?_
  have hl : iblk0 V c 0 t (ix2 p k) = V c main_arg0 (ix2 (⟨((((cfg0.win 2).blk t).view.emb (ix2 p q)) 0).val, ((((cfg0.win 2).blk t).view.emb (ix2 p q)) 0).isLt⟩ : Fin 100000) k) := by
    show V c main_arg0 (((cfg0.win 0).blk t).view.emb (ix2 p k)) = _
    congr 1
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have hr : iblk0 V c 1 t (ix2 k q) = V c main_arg4 (ix2 k (⟨((((cfg0.win 2).blk t).view.emb (ix2 p q)) 1).val, ((((cfg0.win 2).blk t).view.emb (ix2 p q)) 1).isLt⟩ : Fin 64)) := by
    show V c main_arg4 (((cfg0.win 1).blk t).view.emb (ix2 k q)) = _
    congr 1
    funext a; apply Fin.ext
    match a with
    | ⟨0, _⟩ => show win0_1.index t (0 : Fin 2) * 256 + 1 * k.val = k.val; omega
    | ⟨1, _⟩ => show win0_1.index t (1 : Fin 2) * 64 + 1 * q.val = win0_2.index t (1 : Fin 2) * 64 + 1 * q.val; omega
  rw [hl, hr]

/-- An index of the output is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every row of the output is in the block of the point that is its number divided by 5000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0, e1, e2, e3, e4, e5⟩ := block_positions t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE OUTPUT ARRAY after the launch is the whole product of the arrays the launch found. -/
theorem final (c : Dev nD) :
    (dat0 V c).arrAt 2 cfg0.N = product (V c main_arg0) (V c main_arg4) :=
  (dat0 V c).arrAt_eq_of_cover 2 (product (V c main_arg0) (V c main_arg4)) (fun t _ => flushed_eq V c t) covered

end Cert.KernelIdeal.Product

end
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.RegionScale.lean ====
/-
  The second launch: every edge's gathered row scaled by the edge's coefficient, written block by block.

  The grid has 200 points. Point `t` takes entries `8192 t … 8192 t + 8191` of the coefficient vector `a : [1638400]`
  and the same rows of the matrix `G : [1638400, 64]`, lays the coefficients along the rows as a column repeated across the
  64 columns, multiplies entry by entry and writes the result back as the same rows of the output. The 200 blocks tile the
  output, so the output array ends as `(e, j) ↦ a e · G (e, j)`, whatever contents `V` the launch finds its arrays at.
-/
import proofs.«157785_j27315992003075_1_alg».proof.Proof.Gen.KernelIdeal.Frame
import proofs.«157785_j27315992003075_1_alg».proof.Proof.LibColumn
import proofs.«157785_j27315992003075_1_alg».proof.Proof.LibRepeat
import Idealize.ShloMosaic.Lib.Pipeline.Value
import Idealize.ShloMosaic.Lib.ValueIdx

set_option maxRecDepth 16384

noncomputable section

namespace Cert.KernelIdeal.Scale

open Cert.KernelIdeal Cert.KernelIdeal.Gen
open Idealize.ShloMosaic Idealize.ShloMosaic.TcCoe Idealize.ShloMosaic.ValueIdx Idealize.SL.Sem
open Idealize.ShloMosaic.Pipeline (Dat)

/-- Every row of `G` scaled by its coefficient. -/
def scaled (a : S1638400.Idx → EReal) (G : S1638400x64.Idx → EReal) : S1638400x64.Idx → EReal :=
  fun i => a (ix1 (⟨(i 0).val, (i 0).isLt⟩ : Fin 1638400)) * G i

theorem scaled_apply (a : S1638400.Idx → EReal) (G : S1638400x64.Idx → EReal) (e : Fin 1638400) (j : Fin 64) :
    scaled a G (ix2 e j) = a (ix1 e) * G (ix2 e j) := rfl

theorem zero_offset : (![0] : Fin 1 → Nat) = fun _ => 0 := funext fun a => by fin_cases a; rfl
theorem zero_offsets : (![0, 0] : Fin 2 → Nat) = fun _ => 0 := funext fun a => by fin_cases a <;> rfl

/-- The body's stored value at `(p, q)`: the block's coefficient `p` times the block's entry `(p, q)`. -/
theorem stored_apply (x0 : FVec Ideal S8192 .f32) (x1 : FVec Ideal S8192x64 .f32) (p : Fin 8192) (q : Fin 64) :
    k1_pay1 (F := Ideal) x0 x1 (ix2 p q) = x0 (ix1 p) * x1 (ix2 p q) := by
  unfold k1_pay1
  simp only [shapeCast_self]
  rw [mulf_apply, Cert.Lib.Repeat.colRepeat_apply, Cert.Lib.Column.shapeCast_a_a1_apply]

/-- Where each window's block sits at point `t`: all three move down one block of rows per point. -/
theorem block_positions : ∀ t : Fin cfg1.N,
    win1_0.index t (0 : Fin 1) = t.val
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the scaled matrix of the arrays the launch finds. -/
theorem flushed_eq (c : Dev nD) (t : Fin cfg1.N) :
    (dat1 V c).flushed 2 t = ((cfg1.win 2).blk t).view.read (Elt Ideal) (scaled (V c main_v6) (V c main_v13)) := by
  show (cfg1.win 2).cut (grid1.coords t) ((dat1 V c).after 2 t) = _
  rw [after1_2]
  unfold out1_2
  rw [View.canon_unit_zero zero_offsets]
  simp only [View.ld_unit_zero (S := S8192) zero_offset, View.ld_unit_zero (S := S8192x64) zero_offsets]
  obtain ⟨e0, e1, e2, e3, e4⟩ := block_positions t
  funext j
  obtain ⟨p, q, rfl⟩ : ∃ (p : Fin 8192) (q : Fin 64), j = ix2 p q := ⟨j 0, j 1, eq_ix2 j⟩
  refine (stored_apply (iblk1 V c 0 t) (iblk1 V c 1 t) p q).trans ?_
  rw [View.read_apply]
  unfold scaled
  have hl : iblk1 V c 0 t (ix1 p) = V c main_v6 (ix1 (⟨((((cfg1.win 2).blk t).view.emb (ix2 p q)) 0).val, ((((cfg1.win 2).blk t).view.emb (ix2 p q)) 0).isLt⟩ : Fin 1638400)) := by
    show V c main_v6 (((cfg1.win 0).blk t).view.emb (ix1 p)) = _
    congr 1
    funext a; apply Fin.ext
    match a with
    | ⟨0, _⟩ => show win1_0.index t (0 : Fin 1) * 8192 + 1 * p.val = win1_2.index t (0 : Fin 2) * 8192 + 1 * p.val; omega
  have hr : iblk1 V c 1 t (ix2 p q) = V c main_v13 (((cfg1.win 2).blk t).view.emb (ix2 p q)) := by
    show V c main_v13 (((cfg1.win 1).blk t).view.emb (ix2 p q)) = _
    refine congrArg (V c main_v13) (funext fun a => Fin.ext ?_)
    match a with
    | ⟨0, _⟩ => show win1_1.index t (0 : Fin 2) * 8192 + 1 * p.val = win1_2.index t (0 : Fin 2) * 8192 + 1 * p.val; omega
    | ⟨1, _⟩ => show win1_1.index t (1 : Fin 2) * 64 + 1 * q.val = win1_2.index t (1 : Fin 2) * 64 + 1 * q.val; omega
  rw [hl, hr]
  rfl

/-- An index of the output is in point `t`'s block iff each coordinate is in the block's range on its axis. -/
theorem mem_block (t : Fin cfg1.N) (i : S1638400x64.Idx) :
    i ∈ ((cfg1.win 2).blk t).view.set ↔ ∀ a : Fin 2, win1_2.index t a * S8192x64.size a ≤ (i a).val ∧ (i a).val < win1_2.index t a * S8192x64.size a + S8192x64.size a := by
  show i ∈ ((View.whole main_v14).slice (win1_2.rect t)).set ↔ _
  rw [View.set_slice_whole, Rect.mem_set_unit]
  exact Iff.rfl

/-- Every row of the output is in the block of the point that is its number divided by 8192. -/
theorem covered (i : S1638400x64.Idx) :
    ∃ t : Fin cfg1.N, (cfg1.win 2).flush t = true ∧ i ∈ ((cfg1.win 2).blk t).view.set := by
  have hi0 : (i 0).val < 1638400 := (i 0).isLt
  have hi1 : (i 1).val < 64 := (i 1).isLt
  have hN : cfg1.N = 200 := N_1
  let t : Fin cfg1.N := ⟨(i 0).val / 8192, by rw [hN]; omega⟩
  obtain ⟨e0, e1, e2, e3, e4⟩ := block_positions t
  have ht : t.val = (i 0).val / 8192 := rfl
  refine ⟨t, flush1_2 t, ?_⟩
  rw [mem_block]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 64 ≤ (i 1).val ∧ (i 1).val < win1_2.index t (1 : Fin 2) * 64 + 64; omega

/-- THE OUTPUT ARRAY after the launch is the scaled matrix of the arrays the launch found. -/
theorem final (c : Dev nD) :
    (dat1 V c).arrAt 2 cfg1.N = scaled (V c main_v6) (V c main_v13) :=
  (dat1 V c).arrAt_eq_of_cover 2 (scaled (V c main_v6) (V c main_v13)) (fun t _ => flushed_eq V c t) covered

end Cert.KernelIdeal.Scale

end
-- ==== Proof.RegionPositive.lean ====
/-
  The third launch: the positive part, written block by block.

  The grid has 10 points. Point `t` takes rows `10000 t … 10000 t + 9999` of the matrix `X : [100000, 64]`, takes the
  larger of each entry and zero, and writes the result back as the same rows of the output. The 10 blocks tile the output,
  so the output array ends as `(n, j) ↦ max (X (n, j)) 0`, whatever contents `V` the launch finds its arrays at.
-/
import proofs.«157785_j27315992003075_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Positive

open Cert.KernelIdeal Cert.KernelIdeal.Gen
open Idealize.ShloMosaic Idealize.ShloMosaic.TcCoe Idealize.ShloMosaic.ValueIdx Idealize.SL.Sem
open Idealize.ShloMosaic.Pipeline (Dat)

/-- The positive part of every entry. -/
def positive (X : S100000x64.Idx → EReal) : S100000x64.Idx → EReal := fun i => max (X i) 0

theorem zero_offsets : (![0, 0] : Fin 2 → Nat) = fun _ => 0 := funext fun a => by fin_cases a <;> rfl

/-- The body's stored value at an index: the larger of the block's entry and zero. -/
theorem stored_apply (x0 : FVec Ideal S10000x64 .f32) (j : S10000x64.Idx) :
    k2_pay1 (F := Ideal) x0 j = max (x0 j) 0 := by
  unfold k2_pay1
  simp only [shapeCast_self]
  rw [maximumf_apply, broadcast_apply]
  show max (x0 j) (Ideal.ofBits .f32 0x00000000#32) = _
  rw [Ideal.ofBits_zero_f32]

/-- Where each window's block sits at point `t`: both move down one block of rows per point. -/
theorem block_positions : ∀ t : Fin cfg2.N,
    win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

variable (V : (c : Dev nD) → (b : Ref sig .tc) → Buf (Elt Ideal) ((c : Thread nD τ).loc b))

/-- What point `t` writes back is block `t` of the positive part of the array the launch finds. -/
theorem flushed_eq (c : Dev nD) (t : Fin cfg2.N) :
    (dat2 V c).flushed 1 t = ((cfg2.win 1).blk t).view.read (Elt Ideal) (positive (V c main_v17)) := by
  show (cfg2.win 1).cut (grid2.coords t) ((dat2 V c).after 1 t) = _
  rw [after2_1]
  unfold out2_1
  rw [View.canon_unit_zero zero_offsets]
  simp only [View.ld_unit_zero (S := S10000x64) zero_offsets]
  obtain ⟨e0, e1, e2, e3⟩ := block_positions t
  funext j
  refine (stored_apply (iblk2 V c 0 t) j).trans ?_
  rw [View.read_apply]
  unfold positive
  have hl : iblk2 V c 0 t j = V c main_v17 (((cfg2.win 1).blk t).view.emb j) := by
    show V c main_v17 (((cfg2.win 0).blk t).view.emb j) = _
    refine congrArg (V c main_v17) (funext fun a => Fin.ext ?_)
    match a with
    | ⟨0, _⟩ => show win2_0.index t (0 : Fin 2) * 10000 + 1 * (j 0).val = win2_1.index t (0 : Fin 2) * 10000 + 1 * (j 0).val; omega
    | ⟨1, _⟩ => show win2_0.index t (1 : Fin 2) * 64 + 1 * (j 1).val = win2_1.index t (1 : Fin 2) * 64 + 1 * (j 1).val; omega
  rw [hl]
  rfl

/-- An index of the output is in point `t`'s block iff each coordinate is in the block's range on its axis. -/
theorem mem_block (t : Fin cfg2.N) (i : S100000x64.Idx) :
    i ∈ ((cfg2.win 1).blk t).view.set ↔ ∀ a : Fin 2, win2_1.index t a * S10000x64.size a ≤ (i a).val ∧ (i a).val < win2_1.index t a * S10000x64.size a + S10000x64.size a := by
  show i ∈ ((View.whole main_v18).slice (win2_1.rect t)).set ↔ _
  rw [View.set_slice_whole, Rect.mem_set_unit]
  exact Iff.rfl

/-- Every row of the output is in the block of the point that is its number divided by 10000. -/
theorem covered (i : S100000x64.Idx) :
    ∃ t : Fin cfg2.N, (cfg2.win 1).flush t = true ∧ i ∈ ((cfg2.win 1).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨e0, e1, e2, e3⟩ := block_positions t
  have ht : t.val = (i 0).val / 10000 := rfl
  refine ⟨t, flush2_1 t, ?_⟩
  rw [mem_block]
  intro a
  match a with
  | ⟨0, _⟩ => show win2_1.index t (0 : Fin 2) * 10000 ≤ (i 0).val ∧ (i 0).val < win2_1.index t (0 : Fin 2) * 10000 + 10000; omega
  | ⟨1, _⟩ => show win2_1.index t (1 : Fin 2) * 64 ≤ (i 1).val ∧ (i 1).val < win2_1.index t (1 : Fin 2) * 64 + 64; omega

/-- THE OUTPUT ARRAY after the launch is the positive part of the array the launch found. -/
theorem final (c : Dev nD) :
    (dat2 V c).arrAt 1 cfg2.N = positive (V c main_v17) :=
  (dat2 V c).arrAt_eq_of_cover 1 (positive (V c main_v17)) (fun t _ => flushed_eq V c t) covered

end Cert.KernelIdeal.Positive

end
-- ==== Proof.LibFoldRead.lean ====
/-
  Reading a fold of host operations at a buffer, with two-operand results kept as an application.

  `StableHlo.after ops V` is the buffer contents after a line of host operations from contents `V`. The library reads such
  a fold at a buffer by one simplifier pass over the operations' result lemmas; a two-operand operation's result is its
  function applied to the two operands' contents, and when that function is a literal `fun a b => …` whose body puts the
  operands inside a dependent pair (a concatenation's list of shaped pieces) the pass substitutes them there and can no
  longer rewrite them. Here the same result is stated through `held2 f x y := f x y`, which the simplifier does not open:
  the operands stay ordinary arguments, and `held2` unfolds by definition when two readings are compared.
  Also: the fold over a concatenation of two lines is the fold of the second over the fold of the first.
-/
import Idealize.ShloMosaic.Lib.StableHlo.Run

namespace Idealize.ShloMosaic.StableHlo

variable {τ : Topo} {sig : RefSig} {Val : EltTy → Type}

/-- A two-argument function applied, as a constant the simplifier leaves closed. -/
def held2 {α β γ : Type} (f : α → β → γ) (x : α) (y : β) : γ := f x y

theorem held2_def {α β γ : Type} (f : α → β → γ) (x : α) (y : β) : held2 f x y = f x y := rfl

/-- A two-operand operation's result at its own result buffer: its function, kept closed, of the operands' contents. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = held2 f (F (Proc.devRef .tc a)) (F (Proc.devRef .tc b)) :=
  binary_result a b y f ha hb hy F

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Reads `after ops V (Proc.devRef .tc r)` for a literal line `ops` in one simplifier pass, as the library's
    `after_results_simp` does, with every two-operand result kept as `held2 f _ _`. -/
macro "fold_results" : tactic =>
  `(tactic| (simp (disch := decide) only [after_cons, after_nil,
      nullary_result', unary_result', binary_result_held, ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.HostStretches.lean ====
/-
  The host operations between the launches, read as functions of the buffers they find.

  Before the second launch the host pads the three edge vectors with 38400 zeros (the target rows, the source rows, the
  coefficients), turns a negative source row into a row counted from the end (adds 100000 to it), lays the source rows out
  as a column and takes, for every edge, the row of the product that the edge's source names. Before the third launch it
  lays the padded target rows out as a column and adds every scaled row into the row of a zero matrix that the edge's
  target names. Each of these buffers is stated here as one function of the contents `W` the operations start from.
-/
import proofs.«157785_j27315992003075_1_alg».proof.Proof.Gen.KernelIdeal.Launch
import proofs.«157785_j27315992003075_1_alg».proof.Proof.LibFoldRead
import Idealize.ShloMosaic.Lib.StableHlo.Run
import Idealize.ShloMosaic.PureOps.Ideal

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

/-- A float vector of 1600000 entries followed by 38400 zeros. -/
def padF (x : FVec Ideal S1600000 .f32) : FVec Ideal S1638400 .f32 :=
  concatenate S1638400 0 [⟨S1600000, x⟩, ⟨S38400, broadcastInDim S38400 ![] bcast_S_S38400 (constant (F := Ideal) S_ .f32 0x00000000#32)⟩]
    concatenates_S1600000_S38400_S1638400_d0

/-- An integer vector of 1600000 entries followed by 38400 zeros. -/
def padI (x : IVec S1600000 32) : IVec S1638400 32 :=
  concatenate S1638400 0 [⟨S1600000, x⟩, ⟨S38400, broadcastInDim S38400 ![] bcast_S_S38400 (constantI S_ 32 0#32)⟩]
    concatenates_S1600000_S38400_S1638400_d0

/-- A row number counted from the end when negative: `x + 100000` where `x < 0`, else `x`. -/
def wrap (x : IVec S1638400 32) : IVec S1638400 32 :=
  select (cmpi .slt x (broadcastInDim S1638400 ![] bcast_S_S1638400 (constantI S_ 32 0#32)))
    (addi x (broadcastInDim S1638400 ![] bcast_S_S1638400 (constantI S_ 32 100000#32))) x

/-- A vector laid out as a column. -/
def column (x : IVec S1638400 32) : IVec S1638400x1 32 :=
  broadcastInDim S1638400x1 ![0] bcast_S1638400_S1638400x1_0 x

/-- The zero matrix the rows are added into. -/
def zeros : FVec Ideal S100000x64 .f32 :=
  broadcastInDim S100000x64 ![] bcast_S_S100000x64 (constant (F := Ideal) S_ .f32 0x00000000#32)

variable (W : Valuation τ sig (Elt Ideal))

/-- The coefficients the second launch reads: the coefficient argument padded. -/
theorem coefficients :
    StableHlo.after (hostOps1 (F := Ideal)) W (Proc.devRef .tc main_v6) = padF (W (Proc.devRef .tc main_arg3)) := by
  fold_results
  rfl

/-- The target rows the third stretch reads: the target argument padded. -/
theorem targets :
    StableHlo.after (hostOps1 (F := Ideal)) W (Proc.devRef .tc main_v2) = padI (W (Proc.devRef .tc main_arg1)) := by
  fold_results
  rfl

/-- The matrix the second launch scales: for every padded edge, the row of the product its wrapped source names. -/
theorem gathered :
    StableHlo.after (hostOps1 (F := Ideal)) W (Proc.devRef .tc main_v13)
      = Host.gather gather_S100000x64_S1638400x1_S1638400x64_1_0_n_n_0_1_164 (W (Proc.devRef .tc main_v0))
          (column (wrap (padI (W (Proc.devRef .tc main_arg2))))) := by
  fold_results
  rfl

/-- The matrix the third launch reads: every scaled row added into the row of the zero matrix its target names. -/
theorem summed :
    StableHlo.after (hostOps2 (F := Ideal)) W (Proc.devRef .tc main_v17)
      = Host.scatterAdd scatter_S100000x64_S1638400x1_S1638400x64_1_0_0_1 zeros
          (column (W (Proc.devRef .tc main_v2))) (W (Proc.devRef .tc main_v14)) := by
  fold_results
  rfl

end Cert.KernelIdeal.Glue

end
-- ==== Proof.KernelResult.lean ====
/-
  The kernel's result as one function of its five argument arrays.

  `x0 : [100000, 256]` and `x4 : [256, 64]` are multiplied; the edge vectors `x1` (target rows), `x2` (source rows) and `x3`
  (coefficients) are padded with 38400 zeros; every padded edge takes the row of the product its wrapped source names and
  scales it by its coefficient; the scaled rows are added into the rows of a zero matrix that the targets name; the
  positive part of that matrix is the result.
-/
import proofs.«157785_j27315992003075_1_alg».proof.Proof.RegionProduct
import proofs.«157785_j27315992003075_1_alg».proof.Proof.RegionScale
import proofs.«157785_j27315992003075_1_alg».proof.Proof.RegionPositive
import proofs.«157785_j27315992003075_1_alg».proof.Proof.HostStretches

noncomputable section

namespace Cert.KernelIdeal.Result

open Cert.KernelIdeal Cert.KernelIdeal.Gen Idealize.ShloMosaic

/-- The product, the padded edge list's aggregation of it, and the positive part. -/
def kernelResult (x0 : FVec Ideal S100000x256 .f32) (x1 x2 : IVec S1600000 32) (x3 : FVec Ideal S1600000 .f32)
    (x4 : FVec Ideal S256x64 .f32) : FVec Ideal S100000x64 .f32 :=
  Positive.positive
    (Host.scatterAdd scatter_S100000x64_S1638400x1_S1638400x64_1_0_0_1 Glue.zeros (Glue.column (Glue.padI x1))
      (Scale.scaled (Glue.padF x3)
        (Host.gather gather_S100000x64_S1638400x1_S1638400x64_1_0_n_n_0_1_164 (Product.product x0 x4)
          (Glue.column (Glue.wrap (Glue.padI x2))))))

end Cert.KernelIdeal.Result

end
-- ==== Proof.KernelValue.lean ====
/-
  The kernel's run, read: the result array ends at `kernelResult` of the argument arrays.

  The buffer contents are followed from the launch memory through the five segments of the program: the first launch
  leaves the product in its output array; the first stretch of host operations pads the edge vectors and gathers the
  product's rows; the second launch leaves the scaled rows; the second stretch adds them into the zero matrix; the third
  launch leaves the positive part. A buffer that a segment does not write keeps its contents.
-/
import proofs.«157785_j27315992003075_1_alg».proof.Proof.FrameResult
import proofs.«157785_j27315992003075_1_alg».proof.Proof.KernelResult

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The last boundary's contents at the result buffer are `kernelResult` of the launch memory's argument arrays. -/
theorem result_eq (c : Dev nD) :
    W5 m ρ c (Proc.devRef .tc main_v18)
      = kernelResult (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  -- after the first launch: the product, and the edge vectors untouched
  have e0 : W1 m ρ c (Proc.devRef .tc main_v0)
      = Product.product (m ((c.tc : Thread nD τ).loc main_arg0)) (m ((c.tc : Thread nD τ).loc main_arg4)) :=
    (W1_arr m ρ c 2).trans (Product.final (V0 m ρ) c)
  have e1 : W1 m ρ c (Proc.devRef .tc main_arg1) = m ((c.tc : Thread nD τ).loc main_arg1) := W1_of_ne m ρ c main_arg1 (by decide)
  have e2 : W1 m ρ c (Proc.devRef .tc main_arg2) = m ((c.tc : Thread nD τ).loc main_arg2) := W1_of_ne m ρ c main_arg2 (by decide)
  have e3 : W1 m ρ c (Proc.devRef .tc main_arg3) = m ((c.tc : Thread nD τ).loc main_arg3) := W1_of_ne m ρ c main_arg3 (by decide)
  -- after the first stretch of host operations
  have g6 : W2 m ρ c (Proc.devRef .tc main_v6) = Glue.padF (m ((c.tc : Thread nD τ).loc main_arg3)) :=
    (Glue.coefficients (W1 m ρ c)).trans (congrArg Glue.padF e3)
  have g2 : W2 m ρ c (Proc.devRef .tc main_v2) = Glue.padI (m ((c.tc : Thread nD τ).loc main_arg1)) :=
    (Glue.targets (W1 m ρ c)).trans (congrArg Glue.padI e1)
  have g13 : W2 m ρ c (Proc.devRef .tc main_v13)
      = Host.gather gather_S100000x64_S1638400x1_S1638400x64_1_0_n_n_0_1_164
          (Product.product (m ((c.tc : Thread nD τ).loc main_arg0)) (m ((c.tc : Thread nD τ).loc main_arg4)))
          (Glue.column (Glue.wrap (Glue.padI (m ((c.tc : Thread nD τ).loc main_arg2))))) :=
    (Glue.gathered (W1 m ρ c)).trans (by rw [e0, e2])
  -- after the second launch: the scaled rows, and the padded targets untouched
  have s14 : W3 m ρ c (Proc.devRef .tc main_v14)
      = Scale.scaled (Glue.padF (m ((c.tc : Thread nD τ).loc main_arg3)))
          (Host.gather gather_S100000x64_S1638400x1_S1638400x64_1_0_n_n_0_1_164
            (Product.product (m ((c.tc : Thread nD τ).loc main_arg0)) (m ((c.tc : Thread nD τ).loc main_arg4)))
            (Glue.column (Glue.wrap (Glue.padI (m ((c.tc : Thread nD τ).loc main_arg2)))))) :=
    (W3_arr m ρ c 2).trans ((Scale.final (V2 m ρ) c).trans (congrArg₂ Scale.scaled g6 g13))
  have s2 : W3 m ρ c (Proc.devRef .tc main_v2) = Glue.padI (m ((c.tc : Thread nD τ).loc main_arg1)) :=
    (W3_of_ne m ρ c main_v2 (by decide)).trans g2
  -- after the second stretch: the rows added into the zero matrix
  have t17 : W4 m ρ c (Proc.devRef .tc main_v17)
      = Host.scatterAdd scatter_S100000x64_S1638400x1_S1638400x64_1_0_0_1 Glue.zeros
          (Glue.column (Glue.padI (m ((c.tc : Thread nD τ).loc main_arg1))))
          (Scale.scaled (Glue.padF (m ((c.tc : Thread nD τ).loc main_arg3)))
            (Host.gather gather_S100000x64_S1638400x1_S1638400x64_1_0_n_n_0_1_164
              (Product.product (m ((c.tc : Thread nD τ).loc main_arg0)) (m ((c.tc : Thread nD τ).loc main_arg4)))
              (Glue.column (Glue.wrap (Glue.padI (m ((c.tc : Thread nD τ).loc main_arg2))))))) :=
    (Glue.summed (W3 m ρ c)).trans (by rw [s2, s14])
  -- after the third launch: the positive part
  exact (W5_arr m ρ c 1).trans ((Positive.final (V4 m ρ) c).trans (congrArg Positive.positive t17))

/-- Every weakly fair execution of the kernel's program terminates, nothing faulting, with the result array at
    `kernelResult` of the argument arrays and the argument arrays unchanged. -/
theorem run : θ_run defs (onTc (τ := τ) (main (F := Ideal))) ⟨m, fun _ => 0, ρ⟩ (fun r => ∀ c : Dev nD,
      r.2.mem ((c.tc : Thread nD τ).loc main_v18)
        = kernelResult (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Cert.KernelIdeal.GenP.frame_result m ρ)

end Cert.KernelIdeal.Result

end
-- ==== Proof.LibStack.lean ====
/-
  Two matrices stacked one above the other, and two vectors laid end to end, read at an index.

  Concatenating an `[a, n]` matrix `A` and a `[b, n]` matrix `B` along the rows gives, at row `i < a`, row `i` of `A` and,
  at row `a + i`, row `i` of `B`. Concatenating an `[a]` vector and a `[b]` vector gives the first at `i < a` and the
  second at `a + i`; the same holds after the result is cast to a single row `[1, a + b]`.
-/
import Idealize.ShloMosaic.Lib.Pipeline.Value
import Idealize.ShloMosaic.Lib.ValueIdx

namespace Cert.Lib.Stack

open Idealize.ShloMosaic Idealize.ShloMosaic.ValueIdx

variable {α : Type} {a b n tot : Nat}

/-- A row of the upper matrix. -/
theorem stackRows_top (A : (⟨2, ![a, n]⟩ : Shape).Idx → α) (B : (⟨2, ![b, n]⟩ : Shape).Idx → α)
    (h : Shape.Concatenates [⟨2, ![a, n]⟩, ⟨2, ![b, n]⟩] ⟨2, ![tot, n]⟩ 0) (i : Fin a) (k : Fin n) (hi : i.val < tot) :
    concatenate ⟨2, ![tot, n]⟩ 0 [⟨⟨2, ![a, n]⟩, A⟩, ⟨⟨2, ![b, n]⟩, B⟩] h (ix2 ⟨i.val, hi⟩ k) = A (ix2 i k) :=
  concatenate_pair_apply_left 0 A B h (ix2 ⟨i.val, hi⟩ k) rfl (ix2 i k) (fun d => match d with
    | ⟨0, _⟩ => rfl
    | ⟨1, _⟩ => rfl)

/-- A row of the lower matrix. -/
theorem stackRows_bottom (A : (⟨2, ![a, n]⟩ : Shape).Idx → α) (B : (⟨2, ![b, n]⟩ : Shape).Idx → α)
    (h : Shape.Concatenates [⟨2, ![a, n]⟩, ⟨2, ![b, n]⟩] ⟨2, ![tot, n]⟩ 0) (i : Fin b) (k : Fin n) (hi : i.val + a < tot) :
    concatenate ⟨2, ![tot, n]⟩ 0 [⟨⟨2, ![a, n]⟩, A⟩, ⟨⟨2, ![b, n]⟩, B⟩] h (ix2 ⟨i.val + a, hi⟩ k) = B (ix2 i k) :=
  concatenate_pair_apply_right 0 A B h (ix2 ⟨i.val + a, hi⟩ k) rfl rfl (ix2 i k)
    (fun d hd => match d with
      | ⟨0, _⟩ => absurd rfl hd
      | ⟨1, _⟩ => rfl)
    rfl

/-- An entry of the first vector. -/
theorem join_left (A : (⟨1, ![a]⟩ : Shape).Idx → α) (B : (⟨1, ![b]⟩ : Shape).Idx → α)
    (h : Shape.Concatenates [⟨1, ![a]⟩, ⟨1, ![b]⟩] ⟨1, ![tot]⟩ 0) (i : Fin a) (hi : i.val < tot) :
    concatenate ⟨1, ![tot]⟩ 0 [⟨⟨1, ![a]⟩, A⟩, ⟨⟨1, ![b]⟩, B⟩] h (ix1 ⟨i.val, hi⟩) = A (ix1 i) :=
  concatenate_pair_apply_left 0 A B h (ix1 ⟨i.val, hi⟩) rfl (ix1 i) (fun d => match d with
    | ⟨0, _⟩ => rfl)

/-- An entry of the second vector. -/
theorem join_right (A : (⟨1, ![a]⟩ : Shape).Idx → α) (B : (⟨1, ![b]⟩ : Shape).Idx → α)
    (h : Shape.Concatenates [⟨1, ![a]⟩, ⟨1, ![b]⟩] ⟨1, ![tot]⟩ 0) (i : Fin b) (hi : i.val + a < tot) :
    concatenate ⟨1, ![tot]⟩ 0 [⟨⟨1, ![a]⟩, A⟩, ⟨⟨1, ![b]⟩, B⟩] h (ix1 ⟨i.val + a, hi⟩) = B (ix1 i) :=
  concatenate_pair_apply_right 0 A B h (ix1 ⟨i.val + a, hi⟩) rfl rfl (ix1 i)
    (fun d hd => match d with
      | ⟨0, _⟩ => absurd rfl hd)
    rfl

/-- A vector cast to a single row, at `(u, i)`: the vector at `i`. -/
theorem rowCast_apply (x : (⟨1, ![n]⟩ : Shape).Idx → α) (h : (⟨1, ![n]⟩ : Shape).ShapeCasts ⟨2, ![1, n]⟩)
    (u : Fin 1) (i : Fin n) : shapeCast ⟨2, ![1, n]⟩ x h (ix2 u i) = x (ix1 i) :=
  shapeCast_apply x h _ _ (by
    have hu : u.val = 0 := by omega
    rw [Shape.rowMajor_val_two, Shape.rowMajor_val_one]
    show i.val = u.val * n + i.val
    rw [hu]; omega)

end Cert.Lib.Stack
-- ==== Proof.Padded.lean ====
/-
  The padded edge vectors, the wrapped source rows and the column layout, read at an index.

  A padded vector reads the original at a position below 1600000 and zero from there on; a wrapped row number reads
  `x + 100000` where `x < 0` and `x` elsewhere; a vector laid out as a column reads, at `(e, 0)`, its entry `e`.
-/
import proofs.«157785_j27315992003075_1_alg».proof.Proof.HostStretches
import proofs.«157785_j27315992003075_1_alg».proof.Proof.LibStack
import Idealize.ShloMosaic.Lib.Pipeline.Value
import Idealize.ShloMosaic.Lib.ValueIdx
import Idealize.ShloMosaic.PureOps.Ideal.Laws

noncomputable section

namespace Cert.KernelIdeal.Glue

open Cert.KernelIdeal Cert.KernelIdeal.Gen Idealize.ShloMosaic Idealize.ShloMosaic.ValueIdx

theorem short_le_long : 1600000 ≤ 1638400 := by decide

/-- A column reads, at `(e, u)`, the vector's entry `e`. -/
theorem column_apply (x : IVec S1638400 32) (e : Fin 1638400) (u : Fin 1) : column x (ix2 e u) = x (ix1 e) := by
  unfold column
  exact broadcastInDim_apply _ bcast_S1638400_S1638400x1_0 x (ix2 e u) (ix1 e) (fun a => match a with
    | ⟨0, _⟩ => by show e.val = if (1638400 : Nat) = 1 then 0 else e.val; rw [if_neg (by decide)])

/-- A wrapped row number, entry by entry. -/
theorem wrap_apply (x : IVec S1638400 32) (i : S1638400.Idx) :
    wrap x i = Scalar.select (IntOp.cmpi .slt (x i) 0#32) (IntOp.addi (x i) 100000#32) (x i) := by
  unfold wrap
  show Scalar.select (IntOp.cmpi .slt (x i) (broadcastInDim S1638400 ![] bcast_S_S1638400 (constantI S_ 32 0#32) i))
      (IntOp.addi (x i) (broadcastInDim S1638400 ![] bcast_S_S1638400 (constantI S_ 32 100000#32) i)) (x i) = _
  rw [broadcastInDim_apply _ bcast_S_S1638400 (constantI S_ 32 0#32) i ix0 (fun a => a.elim0),
    broadcastInDim_apply _ bcast_S_S1638400 (constantI S_ 32 100000#32) i ix0 (fun a => a.elim0)]
  rfl

/-- A padded integer vector reads the original below position 1600000. -/
theorem padI_left (x : IVec S1600000 32) (e : Fin 1600000) : padI x (ix1 (Fin.castLE short_le_long e)) = x (ix1 e) := by
  unfold padI
  exact Cert.Lib.Stack.join_left x _ _ e _

/-- A padded float vector reads the original below position 1600000 … -/
theorem padF_left (x : FVec Ideal S1600000 .f32) (e : Fin 1600000) : padF x (ix1 (Fin.castLE short_le_long e)) = x (ix1 e) := by
  unfold padF
  exact Cert.Lib.Stack.join_left x _ _ e _

/-- … and zero from there on. -/
theorem padF_right (x : FVec Ideal S1600000 .f32) (e : Fin 1638400) (he : 1600000 ≤ e.val) : padF x (ix1 e) = 0 := by
  obtain ⟨v, hv⟩ := e
  have he' : 1600000 ≤ v := he
  have hv' : v - 1600000 < 38400 := by omega
  have hlt : (v - 1600000) + 1600000 < 1638400 := by omega
  have hidx : (⟨v, hv⟩ : Fin 1638400) = ⟨(⟨v - 1600000, hv'⟩ : Fin 38400).val + 1600000, hlt⟩ :=
    Fin.ext (by show v = v - 1600000 + 1600000; omega)
  rw [hidx]
  unfold padF
  refine (Cert.Lib.Stack.join_right x _ _ ⟨v - 1600000, hv'⟩ hlt).trans ?_
  rw [broadcastInDim_apply _ bcast_S_S38400 _ _ ix0 (fun a => a.elim0)]
  exact Ideal.ofBits_zero_f32

end Cert.KernelIdeal.Glue

end
-- ==== Proof.LibAggregate.lean ====
/-
  Weighted row aggregation over a list of edges, read at an index, and its commutation with a matrix product.

  An edge list gives every edge `e` a source row, a target row and a coefficient.  "Aggregation" of a matrix `X : [N, C]`
  takes for every edge the source row of `X`, scales it by the edge's coefficient, and adds it into the target row of an
  `[N, C]` accumulator: a row gather, a pointwise product with the coefficients laid along the rows, and an
  accumulating row scatter.  Read at `(n, k)` the result is `Z (n, k) + ∑ e, [target e = n] · c e · X (source e, k)`.

  Aggregation is linear in `X`, so it commutes with multiplying on the right by a matrix `W`:
  `(aggregate X) · W = aggregate (X · W)`, PROVIDED the coefficients and the entries of `X` and `W` are real numbers —
  on the extended reals the distributive law behind it fails at the infinities.
-/
import Idealize.ShloMosaic.Lib.ValueIdx
import Idealize.ShloMosaic.Lib.StackMember
import Idealize.ShloMosaic.Lib.KernelVsHost

noncomputable section

open scoped BigOperators

namespace Cert.Aggregate

open Idealize.ShloMosaic Idealize.ShloMosaic.ValueIdx Idealize.ShloMosaic.StackMember

/-! ## Sums of reals inside the extended reals -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: for real coefficients `c`, real rows `x e` and a real column `w`, scaling-and-summing the rows over a set
    of edges and then contracting with `w` is contracting every row with `w` first and then scaling-and-summing.
    Both sides are the coercion of the same real double sum. -/
theorem sum_scaled_rows_mul {ι κ : Type*} [Fintype κ] (S : Finset ι) (c : ι → ℝ) (x : ι → κ → ℝ) (w : κ → ℝ) :
    ∑ k, (∑ e ∈ S, (c e : EReal) * (x e k : EReal)) * (w k : EReal)
      = ∑ e ∈ S, (c e : EReal) * ∑ k, (x e k : EReal) * (w k : EReal) := by
  have hl : ∀ k, (∑ e ∈ S, (c e : EReal) * (x e k : EReal)) * (w k : EReal)
      = ((( ∑ e ∈ S, c e * x e k) * w k : ℝ) : EReal) := by
    intro k
    rw [EReal.coe_mul, coe_finset_sum]
    simp only [EReal.coe_mul]
  have hr : ∀ e, (c e : EReal) * ∑ k, (x e k : EReal) * (w k : EReal)
      = ((c e * ∑ k, x e k * w k : ℝ) : EReal) := by
    intro e
    rw [EReal.coe_mul, coe_finset_sum]
    simp only [EReal.coe_mul]
  simp only [hl, hr, ← coe_finset_sum]
  congr 1
  simp only [Finset.sum_mul, Finset.mul_sum]
  rw [Finset.sum_comm]
  refine Finset.sum_congr rfl fun e _ => Finset.sum_congr rfl fun k _ => ?_
  ring

/-! ## Taking rows: a gather of whole rows of a matrix at a column of start indices -/

section Rows

variable {N R C w : Nat}

/-- The dimension numbers of `X[idx]` for `X : [N, C]` and `idx : [R, 1]`: result row `e` is the row of `X` that start
    index `idx (e, 0)` names. -/
abbrev rowGather (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the index read signed and clamped into `[0, N − 1]`. -/
def srcRow (hN : 0 < N) (idx : IVec ⟨2, ![R, 1]⟩ w) (e : Fin R) : Fin N :=
  ⟨min (idx (ix2 e (0 : Fin 1))).toInt.toNat (N - 1), by omega⟩

/-- THE ROW GATHER READ AT `(e, k)`: entry `k` of the row the start index of `e` names. -/
theorem gather_rows_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGather N R C wf) x idx (ix2 e k) = x (ix2 (srcRow hN idx e) k) := by
  unfold Host.gather
  congr 1
  funext a
  refine Fin.ext ?_
  match a with
  | ⟨0, _⟩ =>
    show (rowGather N R C wf).start (ix2 e k) idx 0 + (rowGather N R C wf).batchCoord (ix2 e k) 0
      + (rowGather N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 e k) ⟨List.idxOf (0 : Fin 2) (rowGather N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N R C wf).start (ix2 e k) idx 1 + (rowGather N R C wf).batchCoord (ix2 e k) 1
      + (rowGather N R C wf).offCoord (ix2 e k) 1 = k.val
    rw [GatherDims.batchCoord_eq_zero _ _ _ List.not_mem_nil]
    have hs : (rowGather N R C wf).start (ix2 e k) idx 1 = 0 := by
      unfold GatherDims.start
      rw [dif_neg (show ¬ (1 : Fin 2) ∈ (rowGather N R C wf).startIndexMap from
        (by decide : ¬ (1 : Fin 2) ∈ ([0] : List (Fin 2))))]
    have ho : (rowGather N R C wf).offCoord (ix2 e k) 1 = k.val := by
      unfold GatherDims.offCoord
      rw [dif_pos (show (1 : Fin 2) ∈ (rowGather N R C wf).sKept from
        (GatherDims.mem_sKept _ _).mpr ⟨(by decide : ¬ (1 : Fin 2) ∈ ([0] : List (Fin 2))), List.not_mem_nil⟩)]
      rfl
    rw [hs, ho]; simp

end Rows

/-! ## Adding rows: an accumulating scatter of whole rows at a column of target indices -/

section Scatter

variable {N R C w : Nat}

/-- The dimension numbers of `Z.at[idx].add(U)` for `Z : [N, C]`, `idx : [R, 1]`, `U : [R, C]`: update row `e` is added
    into the row of `Z` that `idx (e, 0)` names, and is dropped when that is not a row of `Z`. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable (wf : ScatterDims.WF ⟨2, ![N, C]⟩ ⟨2, ![R, 1]⟩ ⟨2, ![R, C]⟩ [1] [0] [0] 1)

/-- On the row axis an update starts at its target index, read signed and not clamped. -/
theorem scatter_start_row (idx : IVec ⟨2, ![R, 1]⟩ w) (e : Fin R) (k : Fin C) :
    (rowScatter N R C wf).start (ix2 e k) idx 0 = (idx (ix2 e (0 : Fin 1))).toInt := by
  unfold ScatterDims.start
  rw [dif_pos (show (0 : Fin 2) ∈ (rowScatter N R C wf).scatterDimsToOperandDims from List.mem_singleton.mpr rfl)]
  have hsi : (rowScatter N R C wf).siIdx (ix2 e k) ⟨List.idxOf (0 : Fin 2) (rowScatter N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis an update starts at column 0 … -/
theorem scatter_start_col (idx : IVec ⟨2, ![R, 1]⟩ w) (e : Fin R) (k : Fin C) :
    (rowScatter N R C wf).start (ix2 e k) idx 1 = 0 := by
  unfold ScatterDims.start
  rw [dif_neg (show ¬ (1 : Fin 2) ∈ (rowScatter N R C wf).scatterDimsToOperandDims from
    (by decide : ¬ (1 : Fin 2) ∈ ([0] : List (Fin 2))))]

/-- … its window has no extent along the rows … -/
theorem scatter_window_row (e : Fin R) (k : Fin C) : (rowScatter N R C wf).window (ix2 e k) 0 = 0 := by
  unfold ScatterDims.window
  rw [dif_neg]
  show ¬ (0 : Fin 2) ∈ (⟨2, ![N, C]⟩ : Shape).kept ([0] : List (Fin 2))
  simp [Shape.kept]

/-- … and along the columns the window coordinate is the update's own column. -/
theorem scatter_window_col (e : Fin R) (k : Fin C) : (rowScatter N R C wf).window (ix2 e k) 1 = k.val := by
  unfold ScatterDims.window
  have h1 : (1 : Fin 2) ∈ (rowScatter N R C wf).sKept := by
    show (1 : Fin 2) ∈ (⟨2, ![N, C]⟩ : Shape).kept ([0] : List (Fin 2))
    simp [Shape.kept]
  rw [dif_pos h1]
  rfl

/-- WHERE AN UPDATE LANDS: update `(e, k)` lands on `(n, k')` exactly when its target index is `n` and `k = k'`. -/
theorem resultIdx_rows_iff (idx : IVec ⟨2, ![R, 1]⟩ w) (e : Fin R) (k : Fin C) (n : Fin N) (k' : Fin C) :
    (rowScatter N R C wf).resultIdx? (ix2 e k) idx = some (ix2 n k')
      ↔ (idx (ix2 e (0 : Fin 1))).toInt = (n.val : Int) ∧ k = k' := by
  have s0 := scatter_start_row wf idx e k
  have s1 := scatter_start_col wf idx e k
  have w0 := scatter_window_row wf e k
  have w1 := scatter_window_col wf e k
  unfold ScatterDims.resultIdx?
  split
  · rename_i h
    rw [Option.some.injEq]
    constructor
    · intro hf
      have e0 := congrArg Fin.val (congrFun hf 0)
      have e1 := congrArg Fin.val (congrFun hf 1)
      have h0 := h 0
      simp only [s0, s1, w0, w1] at e0 e1 h0
      refine ⟨?_, Fin.ext ?_⟩
      · have : ((idx (ix2 e (0 : Fin 1))).toInt + ((0 : Nat) : Int)).toNat = n.val := e0
        omega
      · have : (((0 : Int)) + ((k.val : Nat) : Int)).toNat = k'.val := e1
        omega
    · rintro ⟨hn, rfl⟩
      funext a
      refine Fin.ext ?_
      match a with
      | ⟨0, _⟩ =>
        show ((rowScatter N R C wf).start (ix2 e k) idx 0 + ((rowScatter N R C wf).window (ix2 e k) 0 : Nat)).toNat = n.val
        rw [s0, w0, hn]; simp
      | ⟨1, _⟩ =>
        show ((rowScatter N R C wf).start (ix2 e k) idx 1 + ((rowScatter N R C wf).window (ix2 e k) 1 : Nat)).toNat = k.val
        rw [s1, w1]; simp
  · rename_i h
    constructor
    · intro hf; cases hf
    · rintro ⟨hn, rfl⟩
      refine absurd (fun a => ?_) h
      match a with
      | ⟨0, _⟩ =>
        show 0 ≤ (rowScatter N R C wf).start (ix2 e k) idx 0 + ((rowScatter N R C wf).window (ix2 e k) 0 : Nat)
          ∧ (rowScatter N R C wf).start (ix2 e k) idx 0 + ((rowScatter N R C wf).window (ix2 e k) 0 : Nat) < (N : Int)
        rw [s0, w0, hn]
        have := n.isLt
        constructor <;> omega
      | ⟨1, _⟩ =>
        show 0 ≤ (rowScatter N R C wf).start (ix2 e k) idx 1 + ((rowScatter N R C wf).window (ix2 e k) 1 : Nat)
          ∧ (rowScatter N R C wf).start (ix2 e k) idx 1 + ((rowScatter N R C wf).window (ix2 e k) 1 : Nat) < (C : Int)
        rw [s1, w1]
        have := k.isLt
        constructor <;> omega

end Scatter

/-! ## The aggregation read at an index, and the law -/

section Law

variable {N R C w : Nat}

/-- THE ROW SCATTER READ AT `(n, k)`: the accumulator's entry plus column `k` of every update row whose target is `n`. -/
theorem scatterAdd_rows_apply {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ) (n : Fin N) (k : Fin C) :
    Host.scatterAdd (rowScatter N R C wf) x idx upd (ix2 n k)
      = x (ix2 n k) + ∑ e ∈ Finset.univ.filter (fun e : Fin R => (idx (ix2 e (0 : Fin 1))).toInt = (n.val : Int)),
          upd (ix2 e k) := by
  simp only [Host.scatterAdd, Ideal.hostScatterAdd_def, Ideal.hostScatterAdd]
  congr 1
  rw [Finset.sum_filter, sum_idx2, Finset.sum_filter]
  refine Finset.sum_congr rfl fun e _ => ?_
  simp only [resultIdx_rows_iff wf]
  by_cases hP : (idx (ix2 e (0 : Fin 1))).toInt = (n.val : Int)
  · simp [hP]
  · simp [hP]

/-- AGGREGATION COMMUTES WITH A MATRIX PRODUCT.  With a zero accumulator, real coefficients (the same along each
    row), and real matrices `X` and `W`: aggregating the rows of `X` and then multiplying by `W` is aggregating the
    rows of `X · W`.  At `(n, j)` both sides are `∑ e, [target e = n] · c e · ∑ k, X (source e, k) · W (k, j)`. -/
theorem aggregate_dot_comm (hN : 0 < N)
    (wfg : GatherDims.WF ⟨2, ![N, C]⟩ ⟨2, ![R, 1]⟩ ⟨2, ![R, C]⟩ [1] [0] [] [0] [] 1 ![1, C])
    (wfs : ScatterDims.WF ⟨2, ![N, C]⟩ ⟨2, ![R, 1]⟩ ⟨2, ![R, C]⟩ [1] [0] [0] 1)
    (prec : Option ContractPrecision)
    (Z : FVec Ideal ⟨2, ![N, C]⟩ .f32) (hZ : ∀ i, Z i = 0)
    (tgt src : IVec ⟨2, ![R, 1]⟩ w)
    (c : FVec Ideal ⟨2, ![R, C]⟩ .f32) (c0 : Fin R → ℝ) (hc : ∀ e k, c (ix2 e k) = (c0 e : EReal))
    (X : FVec Ideal ⟨2, ![N, C]⟩ .f32) (X0 : (⟨2, ![N, C]⟩ : Shape).Idx → ℝ) (hX : ∀ i, X i = (X0 i : EReal))
    (W : FVec Ideal ⟨2, ![C, C]⟩ .f32) (W0 : (⟨2, ![C, C]⟩ : Shape).Idx → ℝ) (hW : ∀ i, W i = (W0 i : EReal)) :
    Host.dotGeneral (DotDims.plain N C C) prec
        (Host.scatterAdd (rowScatter N R C wfs) Z tgt (mulf c (Host.gather (rowGather N R C wfg) X src))) W
      = Host.scatterAdd (rowScatter N R C wfs) Z tgt
          (mulf c (Host.gather (rowGather N R C wfg) (Host.dotGeneral (DotDims.plain N C C) prec X W) src)) := by
  funext i
  obtain ⟨n, j, rfl⟩ : ∃ (n : Fin N) (j : Fin C), i = ix2 n j := ⟨i 0, i 1, eq_ix2 i⟩
  rw [dotGeneral_plain_apply]
  simp only [scatterAdd_rows_apply, mulf_apply, gather_rows_apply hN, dotGeneral_plain_apply, hZ, zero_add, hc, hX, hW]
  exact sum_scaled_rows_mul _ c0 (fun e k => X0 (ix2 (srcRow hN src e) k)) (fun k => W0 (ix2 k j))

end Law

end Cert.Aggregate

end
-- ==== Proof.LibPadding.lean ====
/-
  Padding an edge list with edges of coefficient zero does not change what it aggregates.

  An edge list of `R` edges gives every edge a source row, a target row and a coefficient; aggregating a matrix `X` adds,
  for every edge, the source row of `X` times the coefficient into the target row of an accumulator. Lengthen the list to
  `R' ≥ R` edges whose first `R` are the old ones and whose others have coefficient `0`: whatever source and target the new
  edges name, each contributes `0 · x = 0` (on the extended reals `0 · ±∞ = 0` too), so the aggregate is unchanged. The
  sum over the longer list splits into the old edges and the new ones, and the second part is a sum of zeros.
-/
import proofs.«157785_j27315992003075_1_alg».proof.Proof.LibAggregate

noncomputable section

open scoped BigOperators

namespace Cert.Padding

open Idealize.ShloMosaic Idealize.ShloMosaic.ValueIdx Cert.Aggregate

/-- A filtered sum over `Fin tot` whose terms vanish from position `a` on is the filtered sum over the first `a` positions. -/
theorem sum_filter_padded {a tot : Nat} (hle : a ≤ tot) (P : Fin tot → Prop) [DecidablePred P] (f : Fin tot → EReal)
    (hz : ∀ e : Fin tot, a ≤ e.val → f e = 0) :
    ∑ e ∈ Finset.univ.filter P, f e
      = ∑ e ∈ Finset.univ.filter (fun e : Fin a => P (Fin.castLE hle e)), f (Fin.castLE hle e) := by
  obtain ⟨b, rfl⟩ := Nat.exists_eq_add_of_le hle
  rw [Finset.sum_filter, Fin.sum_univ_add, Finset.sum_filter]
  have h2 : ∑ i : Fin b, (if P (Fin.natAdd a i) then f (Fin.natAdd a i) else 0) = 0 :=
    Finset.sum_eq_zero fun i _ => by
      rw [hz (Fin.natAdd a i) (Nat.le_add_right a i.val)]
      exact ite_self 0
  rw [h2, add_zero]
  rfl

section

variable {N R R' C w : Nat}

/-- The source row an edge names depends only on the edge's start index. -/
theorem srcRow_eq (hN : 0 < N) (src : IVec ⟨2, ![R, 1]⟩ w) (src' : IVec ⟨2, ![R', 1]⟩ w) (e : Fin R) (e' : Fin R')
    (h : src' (ix2 e' (0 : Fin 1)) = src (ix2 e (0 : Fin 1))) : srcRow hN src' e' = srcRow hN src e := by
  apply Fin.ext
  show min (src' (ix2 e' (0 : Fin 1))).toInt.toNat (N - 1) = min (src (ix2 e (0 : Fin 1))).toInt.toNat (N - 1)
  rw [h]

/-- THE PADDED AGGREGATE IS THE AGGREGATE. `U` and `U'` are the scaled gathered rows of the short and of the long edge
    list (coefficients `c`, `c'`; sources `src`, `src'`), added into the rows of `Z` that `tgt`, `tgt'` name. If the long list
    starts with the short one and its other coefficients are zero, the two results are the same matrix. -/
theorem scatterAdd_padded {φ : FTy} (hle : R ≤ R') (hN : 0 < N)
    (wfg : GatherDims.WF ⟨2, ![N, C]⟩ ⟨2, ![R, 1]⟩ ⟨2, ![R, C]⟩ [1] [0] [] [0] [] 1 ![1, C])
    (wfg' : GatherDims.WF ⟨2, ![N, C]⟩ ⟨2, ![R', 1]⟩ ⟨2, ![R', C]⟩ [1] [0] [] [0] [] 1 ![1, C])
    (wfs : ScatterDims.WF ⟨2, ![N, C]⟩ ⟨2, ![R, 1]⟩ ⟨2, ![R, C]⟩ [1] [0] [0] 1)
    (wfs' : ScatterDims.WF ⟨2, ![N, C]⟩ ⟨2, ![R', 1]⟩ ⟨2, ![R', C]⟩ [1] [0] [0] 1)
    (Z X : FVec Ideal ⟨2, ![N, C]⟩ φ)
    (tgt src : IVec ⟨2, ![R, 1]⟩ w) (tgt' src' : IVec ⟨2, ![R', 1]⟩ w)
    (c : Fin R → EReal) (c' : Fin R' → EReal)
    (U : FVec Ideal ⟨2, ![R, C]⟩ φ) (U' : FVec Ideal ⟨2, ![R', C]⟩ φ)
    (hU : ∀ e k, U (ix2 e k) = c e * Host.gather (rowGather N R C wfg) X src (ix2 e k))
    (hU' : ∀ e k, U' (ix2 e k) = c' e * Host.gather (rowGather N R' C wfg') X src' (ix2 e k))
    (htgt : ∀ e : Fin R, tgt' (ix2 (Fin.castLE hle e) (0 : Fin 1)) = tgt (ix2 e (0 : Fin 1)))
    (hsrc : ∀ e : Fin R, src' (ix2 (Fin.castLE hle e) (0 : Fin 1)) = src (ix2 e (0 : Fin 1)))
    (hc : ∀ e : Fin R, c' (Fin.castLE hle e) = c e)
    (hpad : ∀ e : Fin R', R ≤ e.val → c' e = 0) :
    Host.scatterAdd (rowScatter N R' C wfs') Z tgt' U' = Host.scatterAdd (rowScatter N R C wfs) Z tgt U := by
  funext i
  obtain ⟨n, k, rfl⟩ : ∃ (n : Fin N) (k : Fin C), i = ix2 n k := ⟨i 0, i 1, eq_ix2 i⟩
  rw [scatterAdd_rows_apply, scatterAdd_rows_apply]
  congr 1
  refine (sum_filter_padded hle _ _ fun e he => by rw [hU', hpad e he, zero_mul]).trans ?_
  refine Finset.sum_congr (Finset.filter_congr fun e _ => by rw [htgt]) fun e _ => ?_
  rw [hU', hU, hc, gather_rows_apply hN, gather_rows_apply hN, srcRow_eq hN src src' e (Fin.castLE hle e) (hsrc e)]

end

end Cert.Padding

end
-- ==== Proof.Bridge.lean ====
/-
  The kernel's result and the reference's result are one function of the five argument arrays.

  Both programs multiply `x0` by `x4`, take for every edge the row of the product that the edge's wrapped source names,
  scale it by the edge's coefficient, add it into the row of a zero matrix that the edge's target names, and take the
  positive part. The kernel does so for the edge list padded with 38400 edges of coefficient zero, source 0 and target 0;
  a padded edge adds `0 · x = 0` to row 0, so the two sums agree (the padded aggregate is the aggregate). The two
  products are the same contraction `∑ k, x0 (n, k) · x4 (k, j)`.
-/
import proofs.«157785_j27315992003075_1_alg».proof.Proof.Gen.ReferenceIdeal.Read
import proofs.«157785_j27315992003075_1_alg».proof.Proof.KernelResult
import proofs.«157785_j27315992003075_1_alg».proof.Proof.Padded
import proofs.«157785_j27315992003075_1_alg».proof.Proof.LibPadding

noncomputable section

open scoped BigOperators

namespace Cert.Bridge

open Idealize.ShloMosaic Idealize.ShloMosaic.ValueIdx
open Cert.KernelIdeal Cert.ReferenceIdeal
open Cert.KernelIdeal.Result

variable (x0 : FVec Ideal Cert.KernelIdeal.S100000x256 .f32) (x1 x2 : IVec Cert.KernelIdeal.S1600000 32)
  (x3 : FVec Ideal Cert.KernelIdeal.S1600000 .f32) (x4 : FVec Ideal Cert.KernelIdeal.S256x64 .f32)

/-! ## The reference's composed indices, by coordinates -/

theorem lidx_eq (n : Fin 100000) (j : Fin 64) (k : Fin 256) : Read.lidx_main_v0 (ix2 n j) k = ix2 n k :=
  funext fun a => match a with | ⟨0, _⟩ => rfl | ⟨1, _⟩ => rfl
theorem ridx_eq (n : Fin 100000) (j : Fin 64) (k : Fin 256) : Read.ridx_main_v0 (ix2 n j) k = ix2 k j :=
  funext fun a => match a with | ⟨0, _⟩ => rfl | ⟨1, _⟩ => rfl
theorem coeff_idx_eq (e : Fin 1600000) (k : Fin 64) : Read.idx_main_v1 (Read.idx_main_v9 (ix2 e k)) = ix1 e :=
  funext fun a => match a with | ⟨0, _⟩ => rfl
theorem source_idx_eq (e : Fin 1600000) : Read.idx_main_v7 (ix2 e (0 : Fin 1)) = ix1 e :=
  funext fun a => match a with | ⟨0, _⟩ => rfl
theorem target_idx_eq (e : Fin 1600000) : Read.idx_main_v12 (ix2 e (0 : Fin 1)) = ix1 e :=
  funext fun a => match a with | ⟨0, _⟩ => rfl

/-! ## The pieces -/

/-- The kernel's block-by-block product is the reference's product. -/
theorem product_eq : Product.product x0 x4 = Read.val_main_v0 (F := Ideal) x0 x4 := by
  funext i
  obtain ⟨n, j, rfl⟩ : ∃ (n : Fin 100000) (j : Fin 64), i = ix2 n j := ⟨i 0, i 1, eq_ix2 i⟩
  rw [Read.val_main_v0_apply, Product.product_apply]
  simp only [lidx_eq, ridx_eq]

/-- The reference's scaled rows: the coefficient of edge `e` times the gathered row's entry. -/
theorem ref_rows (e : Fin 1600000) (k : Fin 64) :
    Read.val_main_v10 (F := Ideal) x0 x2 x3 x4 (ix2 e k)
      = x3 (ix1 e) * Host.gather (Cert.Aggregate.rowGather 100000 1600000 64 Cert.ReferenceIdeal.gather_S100000x64_S1600000x1_S1600000x64_1_0_n_n_0_1_164.wf)
          (Read.val_main_v0 (F := Ideal) x0 x4) (Read.val_main_v7 (F := Ideal) x2) (ix2 e k) := by
  rw [Read.val_main_v10_apply, Read.val_main_v9_apply, Read.val_main_v1_apply, coeff_idx_eq]
  rfl

/-- The kernel's padded target rows start with the reference's target rows. -/
theorem targets_agree (e : Fin 1600000) :
    Glue.column (Glue.padI x1) (ix2 (Fin.castLE Glue.short_le_long e) (0 : Fin 1)) = Read.val_main_v12 (F := Ideal) x1 (ix2 e (0 : Fin 1)) := by
  rw [Glue.column_apply, Glue.padI_left, Read.val_main_v12_apply, target_idx_eq]

/-- The kernel's wrapped padded source rows start with the reference's wrapped source rows. -/
theorem sources_agree (e : Fin 1600000) :
    Glue.column (Glue.wrap (Glue.padI x2)) (ix2 (Fin.castLE Glue.short_le_long e) (0 : Fin 1)) = Read.val_main_v7 (F := Ideal) x2 (ix2 e (0 : Fin 1)) := by
  rw [Glue.column_apply, Glue.wrap_apply, Glue.padI_left, Read.val_main_v7_apply, source_idx_eq, Read.val_main_v6_apply,
    Read.val_main_v3_apply, Read.val_main_v5_apply, Read.val_main_v2_apply, Read.val_main_v4_apply, Read.val_main_c_apply,
    Read.val_main_c_0_apply]

/-! ## The aggregates, and the results -/

/-- The padded edge list aggregates to what the reference's edge list aggregates to. -/
theorem aggregate_eq :
    Host.scatterAdd Cert.KernelIdeal.scatter_S100000x64_S1638400x1_S1638400x64_1_0_0_1 Glue.zeros (Glue.column (Glue.padI x1))
        (Scale.scaled (Glue.padF x3)
          (Host.gather Cert.KernelIdeal.gather_S100000x64_S1638400x1_S1638400x64_1_0_n_n_0_1_164 (Product.product x0 x4)
            (Glue.column (Glue.wrap (Glue.padI x2)))))
      = Read.val_main_v13 (F := Ideal) x0 x1 x2 x3 x4 := by
  rw [product_eq]
  unfold Read.val_main_v13
  exact Cert.Padding.scatterAdd_padded (N := 100000) (R := 1600000) (R' := 1638400) (C := 64) Glue.short_le_long (by decide)
    Cert.ReferenceIdeal.gather_S100000x64_S1600000x1_S1600000x64_1_0_n_n_0_1_164.wf
    Cert.KernelIdeal.gather_S100000x64_S1638400x1_S1638400x64_1_0_n_n_0_1_164.wf
    Cert.ReferenceIdeal.scatter_S100000x64_S1600000x1_S1600000x64_1_0_0_1.wf
    Cert.KernelIdeal.scatter_S100000x64_S1638400x1_S1638400x64_1_0_0_1.wf
    Glue.zeros (Read.val_main_v0 (F := Ideal) x0 x4)
    (Read.val_main_v12 (F := Ideal) x1) (Read.val_main_v7 (F := Ideal) x2)
    (Glue.column (Glue.padI x1)) (Glue.column (Glue.wrap (Glue.padI x2)))
    (fun e => x3 (ix1 e)) (fun e => Glue.padF x3 (ix1 e))
    (Read.val_main_v10 (F := Ideal) x0 x2 x3 x4)
    (Scale.scaled (Glue.padF x3)
      (Host.gather Cert.KernelIdeal.gather_S100000x64_S1638400x1_S1638400x64_1_0_n_n_0_1_164 (Read.val_main_v0 (F := Ideal) x0 x4)
        (Glue.column (Glue.wrap (Glue.padI x2)))))
    (ref_rows x0 x2 x3 x4) (fun e k => rfl) (targets_agree x1) (sources_agree x2) (Glue.padF_left x3) (Glue.padF_right x3)

/-- THE TWO RESULTS ARE ONE FUNCTION of the argument arrays. -/
theorem result_eq : kernelResult x0 x1 x2 x3 x4 = Read.val_main_v14 (F := Ideal) x0 x1 x2 x3 x4 := by
  have hk : kernelResult x0 x1 x2 x3 x4 = Positive.positive (Read.val_main_v13 (F := Ideal) x0 x1 x2 x3 x4) :=
    congrArg Positive.positive (aggregate_eq x0 x1 x2 x3 x4)
  rw [hk]
  funext i
  rw [Read.val_main_v14_apply, Read.val_main_call0_v0_apply, Read.val_main_call0_cst_apply]
  show max (Read.val_main_v13 (F := Ideal) x0 x1 x2 x3 x4 i) 0
    = max (Read.val_main_v13 (F := Ideal) x0 x1 x2 x3 x4 i) (Ideal.ofBits .f32 0x00000000#32)
  rw [Ideal.ofBits_zero_f32]

end Cert.Bridge

end
-- ==== Proof.lean ====
/-
  A graph-convolution layer `relu (A · (X · W))` with the sparse matrix `A` given as an edge list: the kernel against its
  reference, over the extended reals.

  The reference multiplies `X : [100000, 256]` by `W : [256, 64]`, takes for each of the 1600000 edges the row of the
  product its source names, scales it by the edge's coefficient, adds it into the row of a zero matrix its target names,
  and takes the positive part. The kernel does the product, the scaling and the positive part in three launches, each
  block by block over a grid, and gathers and adds on the host in between, over the edge list padded to 1638400 edges by
  38400 edges with coefficient, source and target zero.

  What is proved here. Each launch's output array is one whole-array function of its input arrays (the blocks tile the
  output): the product, the row-scaled matrix, the positive part (RegionProduct, RegionScale, RegionPositive). The host
  operations in between are functions of the buffers they find (HostStretches). Following the buffers through the five
  segments gives the kernel's result as one function of the five arguments (KernelResult, KernelValue). That function is
  the reference's (Bridge): the two products are the same contraction, the padded edge list starts with the reference's,
  and a padded edge contributes `0 · x = 0`, also when `x` is infinite, so the precondition is not used by the value
  claim. The kernel is its own idealization (no operation was rewritten), so that claim is trivial.
-/
import proofs.«157785_j27315992003075_1_alg».proof.Defs
import proofs.«157785_j27315992003075_1_alg».proof.Proof.Gen.Kernel
import proofs.«157785_j27315992003075_1_alg».proof.Proof.Gen.Kernel.Frame
import proofs.«157785_j27315992003075_1_alg».proof.Proof.Gen.KernelIdeal
import proofs.«157785_j27315992003075_1_alg».proof.Proof.Gen.KernelIdeal.Frame
import proofs.«157785_j27315992003075_1_alg».proof.Proof.Gen.ReferenceIdeal
import proofs.«157785_j27315992003075_1_alg».proof.Proof.Gen.ReferenceIdeal.Run
import proofs.«157785_j27315992003075_1_alg».proof.Proof.Gen.ReferenceIdeal.Read
import proofs.«157785_j27315992003075_1_alg».proof.Proof.Gen.Pre_finite_inputs
import proofs.«157785_j27315992003075_1_alg».proof.Proof.KernelValue
import proofs.«157785_j27315992003075_1_alg».proof.Proof.Bridge

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on the arguments, the kernel's result array ends at `kernelResult` of the arguments and the
    reference's at its last stage of the same arguments: one function. -/
theorem algebraic : Cert.algebraic_KernelIdeal_ReferenceIdeal := by
  intro m ρ m' ρ' _ hagree
  refine ⟨fun c => Cert.KernelIdeal.Result.kernelResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v14_eq]
  exact (Cert.Bridge.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
